-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x256 .f32) (main_arg1 : FVec F S10000x10000 .f32) (main_arg2 : FVec F S256x256 .f32) (main_arg3 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S2000x256 : Shape := ⟨2, ![2000, 256]⟩
abbrev S400x10000 : Shape := ⟨2, ![400, 10000]⟩
abbrev S400x256 : Shape := ⟨2, ![400, 256]⟩

abbrev nBuf : Space → Nat
  | .hbm => 7
  | .vmem => 11
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S10000x256, .bf16⟩
  | .hbm, ⟨5, _⟩ => ⟨S1x256, .f32⟩
  | .hbm, ⟨6, _⟩ => ⟨S10000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .bf16⟩
  | .local _ .vmem, ⟨4, _⟩ => ⟨S2000x256, .bf16⟩
  | .local _ .vmem, ⟨5, _⟩ => ⟨S400x10000, .f32⟩
  | .local _ .vmem, ⟨6, _⟩ => ⟨S400x10000, .f32⟩
  | .local _ .vmem, ⟨7, _⟩ => ⟨S10000x256, .bf16⟩
  | .local _ .vmem, ⟨8, _⟩ => ⟨S1x256, .f32⟩
  | .local _ .vmem, ⟨9, _⟩ => ⟨S400x256, .f32⟩
  | .local _ .vmem, ⟨10, _⟩ => ⟨S400x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  packedbf16_S2000x256_S2000x256_0_0 : (Rect.unit (s := S2000x256) ![0, 0] S2000x256.size inb_S2000x256_S2000x256_0_0).PackedRows (EltTy.packing .bf16)
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S400x256 : S1x256.Broadcasts S400x256
  inb_S400x256_S400x256_0_0 : ∀ a, (![0, 0] : Fin 2 → Nat) a + S400x256.size a ≤ S400x256.size a
  h_S400x256 : 0 < S400x256.numel
  dot_S2000x256_S256x256_S2000x256_1_0_0_1_n_n_wf : DotDims.WF S2000x256 S256x256 S2000x256 [1] [0] [0] [1] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S10000x256.size a
  hwx0_2 : ∀ i : grid0.Coords, EltTy.bits .bf16 = 32 ∨ (Rect.block (s := S10000x256) S2000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x256.size a ≤ S10000x256.size a
  hwx1_1 : ∀ i : grid1.Coords, EltTy.bits .bf16 = 32 ∨ (Rect.block (s := S10000x256) S10000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x256.size a ≤ S10000x256.size a
  hwx1_3 : ∀ i : grid1.Coords, EltTy.bits .f32 = 32 ∨ (Rect.block (s := S10000x256) S400x256.size (cc1_transform_3 i) (hinb1_3 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0) S10000x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S400x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x256 : Shape := ⟨2, ![10000, 256]⟩
abbrev S10000x10000 : Shape := ⟨2, ![10000, 10000]⟩
abbrev S256x256 : Shape := ⟨2, ![256, 256]⟩
abbrev S256 : Shape := ⟨1, ![256]⟩
abbrev S1x256 : Shape := ⟨2, ![1, 256]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x10000, .f32⟩
  | .hbm, ⟨2, _⟩ => ⟨S256x256, .f32⟩
  | .hbm, ⟨3, _⟩ => ⟨S256, .f32⟩
  | .hbm, ⟨4, _⟩ => ⟨S10000x256, .f32⟩
  | .hbm, ⟨5, _⟩ => ⟨S10000x256, .f32⟩
  | .hbm, ⟨6, _⟩ => ⟨S1x256, .f32⟩
  | .hbm, ⟨7, _⟩ => ⟨S10000x256, .f32⟩
  | .hbm, ⟨8, _⟩ => ⟨S10000x256, .f32⟩
  | .hbm, ⟨9, _⟩ => ⟨S_, .f32⟩
  | .hbm, ⟨10, _⟩ => ⟨S10000x256, .f32⟩
  | .hbm, ⟨11, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.GraphConvSpec.lean ====
/-
  The graph convolution  relu(adj · (x · W) + b)  as functions of the argument arrays, entry by entry, on the extended
  reals.  Two stages: the feature transform  support = x · W  (a 10000×256 by 256×256 product), then the aggregation
  over every node,  out(r, n) = max (Σ_k adj(r, k) · support(k, n) + b(n)) 0.  The aggregation is stated for ANY
  support matrix and any one-row bias, because the kernel computes it from the support array its first call left and
  from the bias reshaped to one row; `conv` composes the two.  Nothing here orders or regroups a sum: both programs
  compute exactly these sums, so no law of the extended reals beyond reading each operation at an entry is needed.
-/
import Idealize.ShloMosaic.PureOps.Ideal
import Idealize.ShloMosaic.Lib.ValueIdx

noncomputable section

namespace Cert.GraphConv

open Idealize.ShloMosaic Idealize.ShloMosaic.ValueIdx

/-- A matrix of extended reals, by index. -/
abbrev Mat (a b : Nat) : Type := (⟨2, ![a, b]⟩ : Shape).Idx → EReal
/-- A vector of extended reals, by index. -/
abbrev Vect (a : Nat) : Type := (⟨1, ![a]⟩ : Shape).Idx → EReal

/-- Entry (r, n) of x · W: the sum over the 256 input features. -/
def supportAt (x : Mat 10000 256) (W : Mat 256 256) (r : Fin 10000) (n : Fin 256) : EReal :=
  ∑ j : Fin 256, x (ix2 r j) * W (ix2 j n)

/-- The feature transform x · W as an array. -/
def support (x : Mat 10000 256) (W : Mat 256 256) : Mat 10000 256 := fun i => supportAt x W (i 0) (i 1)

theorem support_ix2 (x : Mat 10000 256) (W : Mat 256 256) (r : Fin 10000) (n : Fin 256) :
    support x W (ix2 r n) = supportAt x W r n := rfl

/-- Entry (r, n) of the aggregation: node r's row of the adjacency against column n of the support matrix, plus the
    bias of feature n, clamped below at zero. -/
def aggAt (adj : Mat 10000 10000) (s : Mat 10000 256) (b1 : Mat 1 256) (r : Fin 10000) (n : Fin 256) : EReal :=
  max ((∑ k : Fin 10000, adj (ix2 r k) * s (ix2 k n)) + b1 (ix2 (0 : Fin 1) n)) 0

/-- The aggregation as an array. -/
def agg (adj : Mat 10000 10000) (s : Mat 10000 256) (b1 : Mat 1 256) : Mat 10000 256 :=
  fun i => aggAt adj s b1 (i 0) (i 1)

theorem agg_ix2 (adj : Mat 10000 10000) (s : Mat 10000 256) (b1 : Mat 1 256) (r : Fin 10000) (n : Fin 256) :
    agg adj s b1 (ix2 r n) = aggAt adj s b1 r n := rfl

/-- The bias vector as a one-row matrix. -/
def biasRow (b : Vect 256) : Mat 1 256 := fun i => b (ix1 (i 1))

/-- The graph convolution of the four argument arrays. -/
def conv (x : Mat 10000 256) (adj : Mat 10000 10000) (W : Mat 256 256) (b : Vect 256) : Mat 10000 256 :=
  agg adj (support x W) (biasRow b)

end Cert.GraphConv

end
-- ==== Proof.RefIsConv.lean ====
/-
  The reference program computes the graph convolution.  Its eight host operations are: the product x · W; the product
  of the adjacency with that; the bias broadcast first to one row and then down all 10000 rows; the sum; and the
  maximum with a zero splat.  Read at an entry (r, n), the first product is the sum over the 256 features, the second
  the sum over the 10000 nodes, the broadcasts read the bias at n, and the zero splat is the extended real 0: that is
  `conv` entry by entry, with the sums in the same order and grouping.
-/
import proofs.«167471_g31456340476406_cont_sun_m_339_7_alg».proof.Proof.Gen.ReferenceIdeal.Read
import proofs.«167471_g31456340476406_cont_sun_m_339_7_alg».proof.Proof.GraphConvSpec
import Idealize.ShloMosaic.PureOps.Ideal.Laws

noncomputable section

namespace Cert.ReferenceIdeal.RefValue

open Cert.ReferenceIdeal Cert.ReferenceIdeal.Read Cert.GraphConv
open Idealize.ShloMosaic Idealize.ShloMosaic.ValueIdx

/-! ## Where each operation reads its operands, at an entry (r, n) -/

theorem lidx_v0 (r : Fin 10000) (n k : Fin 256) : lidx_main_v0 (ix2 r n) k = ix2 r k :=
  funext fun a => Fin.ext (by match a with | ⟨0, _⟩ => rfl | ⟨1, _⟩ => rfl)
theorem ridx_v0 (r : Fin 10000) (n k : Fin 256) : ridx_main_v0 (ix2 r n) k = ix2 k n :=
  funext fun a => Fin.ext (by match a with | ⟨0, _⟩ => rfl | ⟨1, _⟩ => rfl)
theorem lidx_v1 (r : Fin 10000) (n : Fin 256) (k : Fin 10000) : lidx_main_v1 (ix2 r n) k = ix2 r k :=
  funext fun a => Fin.ext (by match a with | ⟨0, _⟩ => rfl | ⟨1, _⟩ => rfl)
theorem ridx_v1 (r : Fin 10000) (n : Fin 256) (k : Fin 10000) : ridx_main_v1 (ix2 r n) k = ix2 k n :=
  funext fun a => Fin.ext (by match a with | ⟨0, _⟩ => rfl | ⟨1, _⟩ => rfl)
theorem idx_v3 (r : Fin 10000) (n : Fin 256) : idx_main_v3 (ix2 r n) = ix2 (0 : Fin 1) n :=
  funext fun a => Fin.ext (by match a with | ⟨0, _⟩ => rfl | ⟨1, _⟩ => rfl)
theorem idx_v2 (u : Fin 1) (n : Fin 256) : idx_main_v2 (ix2 u n) = ix1 n :=
  funext fun a => Fin.ext (by match a with | ⟨0, _⟩ => rfl)

/-! ## The stages -/

/-- The reference's first product is the feature transform. -/
theorem v0_is_support (x0 : Mat 10000 256) (x2 : Mat 256 256) : val_main_v0 (F := Ideal) x0 x2 = support x0 x2 := by
  funext i
  obtain ⟨r, n, rfl⟩ : ∃ (r : Fin 10000) (n : Fin 256), i = ix2 r n := ⟨i 0, i 1, eq_ix2 i⟩
  rw [val_main_v0_apply, support_ix2]
  unfold supportAt
  refine Finset.sum_congr rfl fun k _ => ?_
  rw [lidx_v0, ridx_v0]

/-- The reference's result is the graph convolution of its arguments. -/
theorem ref_is_conv (x0 : Mat 10000 256) (x1 : Mat 10000 10000) (x2 : Mat 256 256) (x3 : Vect 256) :
    val_main_v5 (F := Ideal) x0 x1 x2 x3 = conv x0 x1 x2 x3 := by
  funext i
  obtain ⟨r, n, rfl⟩ : ∃ (r : Fin 10000) (n : Fin 256), i = ix2 r n := ⟨i 0, i 1, eq_ix2 i⟩
  rw [val_main_v5_apply, val_main_v4_apply, val_main_v1_apply, v0_is_support, val_main_v3_apply, val_main_v2_apply,
    val_main_call0_v0_apply, val_main_call0_cst_apply]
  show max ((∑ k : Fin 10000, _) + _) _ = aggAt x1 (support x0 x2) (biasRow x3) r n
  unfold aggAt biasRow
  refine congrArg₂ max (congrArg₂ (· + ·) (Finset.sum_congr rfl fun k _ => ?_) ?_) ?_
  · rw [lidx_v1, ridx_v1]
  · rw [idx_v3, idx_v2]
  · exact Ideal.ofBits_zero_f32

end Cert.ReferenceIdeal.RefValue

end
-- ==== Proof.KernelRun.lean ====
/-
  The idealized kernel's run with its RESULT named.  The program is two kernel calls with one host reshape between
  them; every weakly fair execution terminates with every buffer the calls and the reshape do not scope at the contents
  obtained by folding the three segments over the launch memory: the first call's arrays at what its write-backs leave,
  then the reshape's result, then the second call's arrays at what ITS write-backs leave.  The frame claim reads only
  the four arguments out of that final valuation; here the result buffer is read out of it as well.
-/
import proofs.«167471_g31456340476406_cont_sun_m_339_7_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the final valuation's contents
    (the second call's output array after its last write-back) and the four arguments as launched. -/
theorem run_main : θ_run defs (onTc (τ := τ) (main (F := F))) ⟨m, fun _ => 0, ρ⟩ (fun r => ∀ c : Dev nD,
      r.2.mem ((c.tc : Thread nD τ).loc main_v0) = V3 m ρ c main_v0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v0 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Result

end
-- ==== Proof.LibPlainMatmul.lean ====
import Idealize.ShloMosaic.Lib.ValueIdx
import Idealize.ShloMosaic.Lib.StackMember
import Idealize.ShloMosaic.PureOps.Ideal.Laws

/-! # A plain matrix product into zero, read at an index

For an m×k matrix A and a k×n matrix B, the product that contracts A's second axis with B's first, with no batch
axis, has at row a and column b the entry  ∑ c, A(a, c) · B(c, b).  At the ideal values this holds of the matrix
unit's product accumulated into the zero splat exactly as it holds of the host's product: the accumulator
contributes the extended real 0, and neither rounds nor orders the sum. The host's form is the library's
(`StackMember.dotGeneral_plain_apply`); the matrix unit's form is derived from it here, since both read at an index
as the same sum over the contraction index. -/

noncomputable section

namespace Cert.LibPlainMatmul

open Idealize.ShloMosaic Idealize.ShloMosaic.ValueIdx

/-- The matrix unit's plain product into the zero splat, at row `a` and column `b`, is the sum over the contracted
    coordinate of the products of the entries. At the ideal values. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec .single A B (ix2 a b)).symm.trans
      (StackMember.dotGeneral_plain_apply prec A B a b))

/-- The host's plain product at row `a` and column `b`, restated beside it. -/
theorem dotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  StackMember.dotGeneral_plain_apply prec A B a b

end Cert.LibPlainMatmul

end
-- ==== Proof.KernelBlocks.lean ====
/-
  What each of the two kernel bodies stores, read at an entry of its block, at the ideal values.
  The first body stores the product of its 2000-row block of x with the whole of W (the change of float format after
  the product is the identity on extended reals): entry (p, q) is the sum over the 256 features of x-block(p, j) · W(j, q).
  The second body stores, for its 400-row block of the adjacency, the product with the whole support matrix, plus the
  one-row bias repeated down the rows, clamped below at zero: entry (p, q) is
  max (Σ_k adj-block(p, k) · support(k, q) + bias(0, q)) 0.  Both products accumulate into a zero splat, which
  contributes the extended real 0.
-/
import proofs.«167471_g31456340476406_cont_sun_m_339_7_alg».proof.Proof.Gen.KernelIdeal.Skeleton
import proofs.«167471_g31456340476406_cont_sun_m_339_7_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blocks

open Cert.KernelIdeal Cert.KernelIdeal.Gen
open Idealize.ShloMosaic Idealize.ShloMosaic.ValueIdx

/-- The first body's stored value at (p, q): row p of the x-block against column q of W. -/
theorem pay_support (v0 : Vec Ideal S2000x256 .f32) (v1 : Vec Ideal S256x256 .f32) (p : Fin 2000) (q : Fin 256) :
    k0_pay1 (F := Ideal) v0 v1 (ix2 p q) = ∑ j : Fin 256, v0 (ix2 p j) * v1 (ix2 j q) := by
  unfold k0_pay1
  exact Cert.LibPlainMatmul.matmul_plain_apply (φ₁ := .f32) (φ₂ := .f32) none v0 v1 p q

/-- The second body's stored value at (p, q): row p of the adjacency block against column q of the support matrix,
    plus the bias of column q, clamped below at zero. -/
theorem pay_agg (v0 : Vec Ideal S400x10000 .f32) (v2 : Vec Ideal S10000x256 .bf16) (v5 : Vec Ideal S1x256 .f32)
    (p : Fin 400) (q : Fin 256) :
    k1_pay1 (F := Ideal) v0 v2 v5 (ix2 p q)
      = max ((∑ k : Fin 10000, v0 (ix2 p k) * v2 (ix2 k q)) + v5 (ix2 (0 : Fin 1) q)) 0 := by
  unfold k1_pay1
  show max (_ + _) _ = _
  refine congrArg₂ max (congrArg₂ (· + ·) ?_ ?_) ?_
  · rw [shapeCast_self]
    exact Cert.LibPlainMatmul.matmul_plain_apply (φ₁ := .bf16) (φ₂ := .bf16) none (truncf .bf16 v0 bitsLt_bf16_f32) v2 p q
  · rw [shapeCast_self]
    exact ValueIdx.broadcastTo_1b_ab_apply v5 _ p q
  · exact Ideal.ofBits_zero_f32

end Cert.KernelIdeal.Blocks

end
-- ==== Proof.SupportArray.lean ====
/-
  The array the first kernel call leaves: the feature transform x · W.  The call runs at 5 grid points; point t reads
  rows 2000·t … 2000·t + 1999 of x and the whole of W, and writes back rows 2000·t … 2000·t + 1999 of its output.
  An entry (p, q) of the written block is row p of the x-block against column q of W, and row p of the x-block is row
  2000·t + p of x: so the written block is the same block of x · W.  The five row blocks cover the 10000 rows, so the
  output array ends holding x · W, whatever it held before.  Stated for ANY contents the call is entered from.
-/
import proofs.«167471_g31456340476406_cont_sun_m_339_7_alg».proof.Proof.Gen.KernelIdeal.Frame
import proofs.«167471_g31456340476406_cont_sun_m_339_7_alg».proof.Proof.KernelBlocks
import proofs.«167471_g31456340476406_cont_sun_m_339_7_alg».proof.Proof.GraphConvSpec
import Idealize.ShloMosaic.Lib.Pipeline.Value

set_option maxRecDepth 16384

noncomputable section

namespace Cert.KernelIdeal.SupportArray

open Cert.KernelIdeal Cert.KernelIdeal.Gen Cert.KernelIdeal.Blocks Cert.GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed block-index maps over the grid: the x-window and the output window sit at row block t, the W-window
    at the one block there is. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The x-window's block at point t, at (p, j), is x at (2000·t + p, j). -/
theorem xblk_apply (c : Dev nD) (t : Fin cfg0.N) (y : S2000x256.Idx) (i : S10000x256.Idx)
    (h0 : (i 0).val = 2000 * t.val + (y 0).val) (h1 : (i 1).val = (y 1).val) :
    (iblk0 V c 0 t : Vec Ideal S2000x256 .f32) y = (V c main_arg0 : Mat 10000 256) i := by
  obtain ⟨e0, e1, -⟩ := idx_facts t
  show V c main_arg0 (((cfg0.win 0).blk t).view.emb y) = V c main_arg0 i
  refine congrArg _ (funext fun a => Fin.ext ?_)
  match a with
  | ⟨0, _⟩ => show win0_0.index t (0 : Fin 2) * 2000 + 1 * (y 0).val = (i 0).val; omega
  | ⟨1, _⟩ => show win0_0.index t (1 : Fin 2) * 256 + 1 * (y 1).val = (i 1).val; omega

/-- The W-window's block at any point is the whole of W. -/
theorem wblk_apply (c : Dev nD) (t : Fin cfg0.N) (y : S256x256.Idx) :
    (iblk0 V c 1 t : Vec Ideal S256x256 .f32) y = (V c main_arg2 : Mat 256 256) y := by
  obtain ⟨-, -, e2, e3, -⟩ := idx_facts t
  show V c main_arg2 (((cfg0.win 1).blk t).view.emb y) = V c main_arg2 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 256 + 1 * (y 1).val = (y 1).val; omega

/-- What point t writes back is block t of x · W. -/
theorem flushed_eq (c : Dev nD) (t : Fin cfg0.N) :
    (dat0 V c).flushed 2 t
      = ((cfg0.win 2).blk t).view.read (Elt Ideal) (support (V c main_arg0) (V c main_arg2)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x256) hz]
  obtain ⟨-, -, -, -, e4, e5⟩ := idx_facts t
  have ht : t.val < 5 := lt_of_lt_of_eq t.isLt (show cfg0.N = 5 from N_0)
  funext j
  obtain ⟨p, q, rfl⟩ : ∃ (p : Fin 2000) (q : Fin 256), j = ix2 p q := ⟨j 0, j 1, eq_ix2 j⟩
  have hemb : ((cfg0.win 2).blk t).view.emb (ix2 p q) = ix2 (⟨2000 * t.val + p.val, by omega⟩ : Fin 10000) q := by
    refine funext fun a => Fin.ext ?_
    match a with
    | ⟨0, _⟩ => show win0_2.index t (0 : Fin 2) * 2000 + 1 * p.val = 2000 * t.val + p.val; omega
    | ⟨1, _⟩ => show win0_2.index t (1 : Fin 2) * 256 + 1 * q.val = q.val; omega
  show k0_pay1 (F := Ideal) (iblk0 V c 0 t) (iblk0 V c 1 t) (ix2 p q)
    = support (V c main_arg0) (V c main_arg2) (((cfg0.win 2).blk t).view.emb (ix2 p q))
  rw [hemb, support_ix2]
  refine (pay_support (iblk0 V c 0 t) (iblk0 V c 1 t) p q).trans ?_
  unfold supportAt
  refine Finset.sum_congr rfl fun k _ => ?_
  refine congrArg₂ (· * ·) ?_ ?_
  · exact xblk_apply V c t (ix2 p k) (ix2 _ k) rfl rfl
  · exact wblk_apply V c t (ix2 k q)

/-- An index of the output array is in point t's block iff its row is in rows 2000·t … 2000·t + 1999. -/
theorem mem_blk (t : Fin cfg0.N) (i : S10000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_call0_v0).slice (win0_2.rect t)).set ↔ _
  rw [View.set_slice_whole, Rect.mem_set_unit]
  exact Iff.rfl

/-- Every index of the output array is in the block of the point its row falls in. -/
theorem cover (i : S10000x256.Idx) :
    ∃ t : Fin cfg0.N, (cfg0.win 2).flush t = true ∧ i ∈ ((cfg0.win 2).blk t).view.set := by
  have hi0 : (i 0).val < 10000 := (i 0).isLt
  have hi1 : (i 1).val < 256 := (i 1).isLt
  have hN : cfg0.N = 5 := N_0
  let t : Fin cfg0.N := ⟨(i 0).val / 2000, by rw [hN]; omega⟩
  obtain ⟨-, -, -, -, e4, e5⟩ := idx_facts t
  refine ⟨t, flush0_2 t, ?_⟩
  rw [mem_blk]
  have htv : t.val = (i 0).val / 2000 := rfl
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The first call's output array after its last write-back is x · W of the contents it was entered from. -/
theorem final (c : Dev nD) : (dat0 V c).arrAt 2 cfg0.N = support (V c main_arg0) (V c main_arg2) :=
  (dat0 V c).arrAt_eq_of_cover 2 (support (V c main_arg0) (V c main_arg2)) (fun t _ => flushed_eq V c t) cover

end Cert.KernelIdeal.SupportArray

end
-- ==== Proof.AggArray.lean ====
/-
  The array the second kernel call leaves: the aggregation of whatever support matrix and one-row bias it is entered
  with.  The call runs at 25 grid points; point t reads rows 400·t … 400·t + 399 of the adjacency, the whole support
  matrix and the whole one-row bias, and writes back rows 400·t … 400·t + 399 of its output.  Entry (p, q) of the
  written block is row p of the adjacency block — row 400·t + p of the adjacency — against column q of the support
  matrix, plus the bias at q, clamped below at zero: the same entry of the aggregation.  The 25 row blocks cover the
  10000 rows, so the output array ends holding the aggregation.  Stated for ANY contents the call is entered from.
-/
import proofs.«167471_g31456340476406_cont_sun_m_339_7_alg».proof.Proof.Gen.KernelIdeal.Frame
import proofs.«167471_g31456340476406_cont_sun_m_339_7_alg».proof.Proof.KernelBlocks
import proofs.«167471_g31456340476406_cont_sun_m_339_7_alg».proof.Proof.GraphConvSpec
import Idealize.ShloMosaic.Lib.Pipeline.Value

set_option maxRecDepth 16384

noncomputable section

namespace Cert.KernelIdeal.AggArray

open Cert.KernelIdeal Cert.KernelIdeal.Gen Cert.KernelIdeal.Blocks Cert.GraphConv
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed block-index maps over the grid: the adjacency window and the output window sit at row block t, the
    support window and the bias window at the one block there is. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The adjacency window's block at point t, at (p, k), is the adjacency at (400·t + p, k). -/
theorem adjblk_apply (c : Dev nD) (t : Fin cfg1.N) (y : S400x10000.Idx) (i : S10000x10000.Idx)
    (h0 : (i 0).val = 400 * t.val + (y 0).val) (h1 : (i 1).val = (y 1).val) :
    (iblk1 V c 0 t : Vec Ideal S400x10000 .f32) y = (V c main_arg1 : Mat 10000 10000) i := by
  obtain ⟨e0, e1, -⟩ := idx_facts t
  show V c main_arg1 (((cfg1.win 0).blk t).view.emb y) = V c main_arg1 i
  refine congrArg _ (funext fun a => Fin.ext ?_)
  match a with
  | ⟨0, _⟩ => show win1_0.index t (0 : Fin 2) * 400 + 1 * (y 0).val = (i 0).val; omega
  | ⟨1, _⟩ => show win1_0.index t (1 : Fin 2) * 10000 + 1 * (y 1).val = (i 1).val; omega

/-- The support window's block at any point is the whole support array. -/
theorem supblk_apply (c : Dev nD) (t : Fin cfg1.N) (y : S10000x256.Idx) :
    (iblk1 V c 1 t : Vec Ideal S10000x256 .bf16) y = (V c main_call0_v0 : Mat 10000 256) y := by
  obtain ⟨-, -, e2, e3, -⟩ := idx_facts t
  show V c main_call0_v0 (((cfg1.win 1).blk t).view.emb y) = V c main_call0_v0 y
  refine congrArg _ (funext fun a => Fin.ext ?_)
  match a with
  | ⟨0, _⟩ => show win1_1.index t (0 : Fin 2) * 10000 + 1 * (y 0).val = (y 0).val; omega
  | ⟨1, _⟩ => show win1_1.index t (1 : Fin 2) * 256 + 1 * (y 1).val = (y 1).val; omega

/-- The bias window's block at any point is the whole one-row bias. -/
theorem biasblk_apply (c : Dev nD) (t : Fin cfg1.N) (y : S1x256.Idx) :
    (iblk1 V c 2 t : Vec Ideal S1x256 .f32) y = (V c main_call0_v1 : Mat 1 256) y := by
  obtain ⟨-, -, -, -, e4, e5, -⟩ := idx_facts t
  show V c main_call0_v1 (((cfg1.win 2).blk t).view.emb y) = V c main_call0_v1 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 256 + 1 * (y 1).val = (y 1).val; omega

/-- What point t writes back is block t of the aggregation. -/
theorem flushed_eq (c : Dev nD) (t : Fin cfg1.N) :
    (dat1 V c).flushed 3 t
      = ((cfg1.win 3).blk t).view.read (Elt Ideal) (agg (V c main_arg1) (V c main_call0_v0) (V c main_call0_v1)) := by
  show (cfg1.win 3).cut (grid1.coords t) ((dat1 V c).after 3 t) = _
  rw [after1_3]
  unfold out1_3
  rw [View.canon_unit_zero hz]
  simp only [View.ld_unit_zero (S := S400x10000) hz, View.ld_unit_zero (S := S10000x256) hz, View.ld_unit_zero (S := S1x256) hz]
  obtain ⟨-, -, -, -, -, -, e6, e7⟩ := idx_facts t
  have ht : t.val < 25 := lt_of_lt_of_eq t.isLt (show cfg1.N = 25 from N_1)
  funext j
  obtain ⟨p, q, rfl⟩ : ∃ (p : Fin 400) (q : Fin 256), j = ix2 p q := ⟨j 0, j 1, eq_ix2 j⟩
  have hemb : ((cfg1.win 3).blk t).view.emb (ix2 p q) = ix2 (⟨400 * t.val + p.val, by omega⟩ : Fin 10000) q := by
    refine funext fun a => Fin.ext ?_
    match a with
    | ⟨0, _⟩ => show win1_3.index t (0 : Fin 2) * 400 + 1 * p.val = 400 * t.val + p.val; omega
    | ⟨1, _⟩ => show win1_3.index t (1 : Fin 2) * 256 + 1 * q.val = q.val; omega
  show k1_pay1 (F := Ideal) (iblk1 V c 0 t) (iblk1 V c 1 t) (iblk1 V c 2 t) (ix2 p q)
    = agg (V c main_arg1) (V c main_call0_v0) (V c main_call0_v1) (((cfg1.win 3).blk t).view.emb (ix2 p q))
  rw [hemb, agg_ix2]
  refine (pay_agg (iblk1 V c 0 t) (iblk1 V c 1 t) (iblk1 V c 2 t) p q).trans ?_
  unfold aggAt
  refine congrArg₂ max (congrArg₂ (· + ·) (Finset.sum_congr rfl fun k _ => congrArg₂ (· * ·) ?_ ?_) ?_) rfl
  · exact adjblk_apply V c t (ix2 p k) (ix2 _ k) rfl rfl
  · exact supblk_apply V c t (ix2 k q)
  · exact biasblk_apply V c t (ix2 (0 : Fin 1) q)

/-- An index of the output array is in point t's block iff its row is in rows 400·t … 400·t + 399. -/
theorem mem_blk (t : Fin cfg1.N) (i : S10000x256.Idx) :
    i ∈ ((cfg1.win 3).blk t).view.set ↔ ∀ a : Fin 2, win1_3.index t a * S400x256.size a ≤ (i a).val ∧ (i a).val < win1_3.index t a * S400x256.size a + S400x256.size a := by
  show i ∈ ((View.whole main_v0).slice (win1_3.rect t)).set ↔ _
  rw [View.set_slice_whole, Rect.mem_set_unit]
  exact Iff.rfl

/-- Every index of the output array is in the block of the point its row falls in. -/
theorem cover (i : S10000x256.Idx) :
    ∃ t : Fin cfg1.N, (cfg1.win 3).flush t = true ∧ i ∈ ((cfg1.win 3).blk t).view.set := by
  have hi0 : (i 0).val < 10000 := (i 0).isLt
  have hi1 : (i 1).val < 256 := (i 1).isLt
  have hN : cfg1.N = 25 := N_1
  let t : Fin cfg1.N := ⟨(i 0).val / 400, by rw [hN]; omega⟩
  obtain ⟨-, -, -, -, -, -, e6, e7⟩ := idx_facts t
  refine ⟨t, flush1_3 t, ?_⟩
  rw [mem_blk]
  have htv : t.val = (i 0).val / 400 := rfl
  intro a
  match a with
  | ⟨0, _⟩ => show win1_3.index t (0 : Fin 2) * 400 ≤ (i 0).val ∧ (i 0).val < win1_3.index t (0 : Fin 2) * 400 + 400; omega
  | ⟨1, _⟩ => show win1_3.index t (1 : Fin 2) * 256 ≤ (i 1).val ∧ (i 1).val < win1_3.index t (1 : Fin 2) * 256 + 256; omega

/-- The second call's output array after its last write-back is the aggregation of the contents it was entered from. -/
theorem final (c : Dev nD) :
    (dat1 V c).arrAt 3 cfg1.N = agg (V c main_arg1) (V c main_call0_v0) (V c main_call0_v1) :=
  (dat1 V c).arrAt_eq_of_cover 3 (agg (V c main_arg1) (V c main_call0_v0) (V c main_call0_v1))
    (fun t _ => flushed_eq V c t) cover

end Cert.KernelIdeal.AggArray

end
-- ==== Proof.KernelValue.lean ====
/-
  The idealized kernel's result is the graph convolution of its arguments.  The result buffer ends at the second
  call's output array after its last write-back, which is the aggregation of the contents that call was entered
  with.  Walking those back through the program: the adjacency is an argument no segment writes, so it is as launched;
  the support array is what the first call's write-backs left, the feature transform x · W of the launch contents (the
  reshape between the calls does not write it); and the one-row bias is the reshape of the bias argument, which reads
  the bias at the column index.  Together: the aggregation of x · W with the bias as a row, i.e. `conv`.
-/
import proofs.«167471_g31456340476406_cont_sun_m_339_7_alg».proof.Proof.KernelRun
import proofs.«167471_g31456340476406_cont_sun_m_339_7_alg».proof.Proof.SupportArray
import proofs.«167471_g31456340476406_cont_sun_m_339_7_alg».proof.Proof.AggArray
import proofs.«167471_g31456340476406_cont_sun_m_339_7_alg».proof.Proof.GraphConvSpec
import Idealize.ShloMosaic.Lib.StableHlo.Run
import Idealize.ShloMosaic.Lib.ValueLayout

set_option maxRecDepth 16384

noncomputable section

namespace Cert.KernelIdeal.ConvValue

open Cert.KernelIdeal Cert.KernelIdeal.Gen Cert.GraphConv
open Idealize.ShloMosaic Idealize.ShloMosaic.TcCoe Idealize.SL.Sem Idealize.ShloMosaic.ValueIdx
open Idealize.ShloMosaic.StableHlo
open Idealize.ShloMosaic.Pipeline (Dat)

variable (m : (ℓ : Loc nD τ sig) → Buf (Elt Ideal) ℓ) (ρ : Dev nD → PrngReg)

/-- The second call is entered with the adjacency as launched. -/
theorem entry_adj (c : Dev nD) : V2 m ρ c main_arg1 = m ((c : Thread nD τ).loc main_arg1) :=
  ((W3_arr m ρ c 0).trans (((dat1 (V2 m ρ) c).arrAt_in 0 rfl _).trans (A_eq1 (V2 m ρ) c 0))).symm.trans
    (W3_main_arg1 m ρ c)

/-- The second call is entered with the support array at x · W of the launch contents. -/
theorem entry_support (c : Dev nD) :
    (V2 m ρ c main_call0_v0 : Mat 10000 256)
      = support (m ((c : Thread nD τ).loc main_arg0)) (m ((c : Thread nD τ).loc main_arg2)) := by
  have h1 : W2 m ρ c (Proc.devRef .tc main_call0_v0) = W1 m ρ c (Proc.devRef .tc main_call0_v0) :=
    StableHlo.after_of_forall_not_mem (b := Proc.devRef .tc main_call0_v0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, Finset.mem_singleton]
      exact StableHlo.devRef_ne_of_ne (by decide)))
  exact (h1.trans (W1_arr m ρ c 2)).trans (SupportArray.final (V0 m ρ) c)

/-- The second call is entered with the one-row bias at the bias argument read along the row. -/
theorem entry_bias (c : Dev nD) :
    (V2 m ρ c main_call0_v1 : Mat 1 256) = biasRow (m ((c : Thread nD τ).loc main_arg3)) := by
  have e : (V2 m ρ c main_call0_v1 : S1x256.Idx → EReal)
      = fun i => shapeCast S1x256 (W1 m ρ c (Proc.devRef .tc main_arg3) : S256.Idx → EReal) shapeCasts_S256_S1x256 i := by
    show StableHlo.after hostOps1 (W1 m ρ c) (Proc.devRef .tc main_call0_v1) = _
    after_results
    rfl
  rw [e, W1_of_ne m ρ c main_arg3 (by decide)]
  funext j
  obtain ⟨u, i, rfl⟩ : ∃ (u : Fin 1) (i : Fin 256), j = ix2 u i := ⟨j 0, j 1, eq_ix2 j⟩
  exact shapeCast_a_1a_apply _ _ u i

/-- The result buffer's final contents: the graph convolution of the arguments as launched. -/
theorem result_eq (c : Dev nD) :
    (V3 m ρ c main_v0 : Mat 10000 256)
      = conv (m ((c : Thread nD τ).loc main_arg0)) (m ((c : Thread nD τ).loc main_arg1))
          (m ((c : Thread nD τ).loc main_arg2)) (m ((c : Thread nD τ).loc main_arg3)) := by
  have h := (W3_arr m ρ c 3).trans (AggArray.final (V2 m ρ) c)
  rw [entry_adj, entry_support, entry_bias] at h
  exact h

/-- The run, read: the result at the graph convolution of the arguments, the arguments unchanged. -/
theorem run : θ_run defs (onTc (τ := τ) (main (F := Ideal))) ⟨m, fun _ => 0, ρ⟩ (fun r => ∀ c : Dev nD,
      r.2.mem ((c.tc : Thread nD τ).loc main_v0)
        = conv (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m ρ c), (h c).2⟩)
    (Cert.KernelIdeal.Result.run_main (F := Ideal) m ρ)

end Cert.KernelIdeal.ConvValue

end
-- ==== Proof.lean ====
/-
  A dense graph convolution, relu(adj · (x · W) + b) over 10000 nodes with 256 input and 256 output features: a kernel
  of two calls — first the feature transform x · W in five row blocks, stored in a narrower float format, then for each
  of 25 row blocks of the adjacency its product with that matrix, plus the bias as a row, clamped below at zero —
  against the plain reference that forms the same two products, adds the bias and takes the maximum with zero.

  On the extended reals a change of float format is the identity and a matrix product into a zero accumulator is the
  plain sum of products, so both programs compute, at every entry (r, n),
      max (Σ_k adj(r, k) · (Σ_j x(k, j) · W(j, n)) + b(n)) 0
  with the sums in the same order and grouping: no algebraic law is used, and the inputs' finiteness is not needed.
  The kernel's side is read off its run block by block (each call's write-backs tile its output array); the
  reference's side is its host operations read one at a time at an entry.  The idealization rewrote no operation, so
  the kernel and its idealization are one text and that conjunct is trivially true.
-/
import proofs.«167471_g31456340476406_cont_sun_m_339_7_alg».proof.Defs
import proofs.«167471_g31456340476406_cont_sun_m_339_7_alg».proof.Proof.Gen.Kernel
import proofs.«167471_g31456340476406_cont_sun_m_339_7_alg».proof.Proof.Gen.Kernel.Skeleton
import proofs.«167471_g31456340476406_cont_sun_m_339_7_alg».proof.Proof.Gen.Kernel.Launch
import proofs.«167471_g31456340476406_cont_sun_m_339_7_alg».proof.Proof.Gen.Kernel.Points
import proofs.«167471_g31456340476406_cont_sun_m_339_7_alg».proof.Proof.Gen.Kernel.Frame
import proofs.«167471_g31456340476406_cont_sun_m_339_7_alg».proof.Proof.Gen.KernelIdeal
import proofs.«167471_g31456340476406_cont_sun_m_339_7_alg».proof.Proof.Gen.KernelIdeal.Skeleton
import proofs.«167471_g31456340476406_cont_sun_m_339_7_alg».proof.Proof.Gen.KernelIdeal.Launch
import proofs.«167471_g31456340476406_cont_sun_m_339_7_alg».proof.Proof.Gen.KernelIdeal.Points
import proofs.«167471_g31456340476406_cont_sun_m_339_7_alg».proof.Proof.Gen.KernelIdeal.Frame
import proofs.«167471_g31456340476406_cont_sun_m_339_7_alg».proof.Proof.Gen.ReferenceIdeal
import proofs.«167471_g31456340476406_cont_sun_m_339_7_alg».proof.Proof.Gen.ReferenceIdeal.Run
import proofs.«167471_g31456340476406_cont_sun_m_339_7_alg».proof.Proof.Gen.ReferenceIdeal.Read
import proofs.«167471_g31456340476406_cont_sun_m_339_7_alg».proof.Proof.Gen.Pre_finite_inputs
import proofs.«167471_g31456340476406_cont_sun_m_339_7_alg».proof.Proof.GraphConvSpec
import proofs.«167471_g31456340476406_cont_sun_m_339_7_alg».proof.Proof.RefIsConv
import proofs.«167471_g31456340476406_cont_sun_m_339_7_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as launched: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the four arguments both programs end with the graph convolution of those arguments. -/
theorem algebraic : Cert.algebraic_KernelIdeal_ReferenceIdeal := by
  intro m ρ m' ρ' _ hagree
  refine ⟨fun c => Cert.GraphConv.conv
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.ConvValue.run m ρ, ?_⟩
  refine (θ_run Cert.ReferenceIdeal.defs _ _).mono (fun _ h c => ⟨(h c).1.trans ?_, (h c).2⟩)
    (Cert.ReferenceIdeal.Value.run (F := Ideal) m' ρ')
  have e := Cert.ReferenceIdeal.RefValue.ref_is_conv
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
  refine (Cert.ReferenceIdeal.Read.val_main_v5_eq _ _ _ _).trans (e.trans ?_)
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
